-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x40 : Shape := ⟨2, ![100000, 40]⟩
abbrev S2x40x40 : Shape := ⟨3, ![2, 40, 40]⟩
abbrev S2x2000000 : Shape := ⟨2, ![2, 2000000]⟩
abbrev S_ : Shape := ⟨0, ![]⟩

class Facts : Prop where
  bcast_S_S100000x40 : S_.BroadcastsInDim S100000x40 (![] : Fin 0 → Fin S100000x40.rank)
  reducesTo_S100000x40_S_d0_1 : S100000x40.ReducesTo [0, 1] S_
  h_S_ : 0 < S_.numel
  bcast_S_S2x40x40 : S_.BroadcastsInDim S2x40x40 (![] : Fin 0 → Fin S2x40x40.rank)
  reducesTo_S2x40x40_S_d0_1_2 : S2x40x40.ReducesTo [0, 1, 2] S_

variable [Facts]

def fn {F : FTy → Type} [FloatOps F] (main_arg0 : FVec F S100000x40 .f32) (main_arg1 : FVec F S2x40x40 .f32) (main_arg2 : IVec S2x2000000 32) : IVec S_ 1 :=
  let main_v0 : FVec F S100000x40 .f32 := Host.absf main_arg0
  let main_cst : FVec F S_ .f32 := constant S_ .f32 0x7F800000#32
  let main_v1 : FVec F S100000x40 .f32 := broadcastInDim S100000x40 ![] bcast_S_S100000x40 main_cst
  let main_v2 : IVec S100000x40 1 := cmpf .olt main_v0 main_v1
  let main_c : IVec S_ 1 := constantI S_ 1 1#1
  let main_v3 : IVec S_ 1 := (fun x v => Host.reduce IntOp.andi x v reducesTo_S100000x40_S_d0_1 h_S_) main_v2 main_c
  let main_v4 : FVec F S2x40x40 .f32 := Host.absf main_arg1
  let main_cst_0 : FVec F S_ .f32 := constant S_ .f32 0x7F800000#32
  let main_v5 : FVec F S2x40x40 .f32 := broadcastInDim S2x40x40 ![] bcast_S_S2x40x40 main_cst_0
  let main_v6 : IVec S2x40x40 1 := cmpf .olt main_v4 main_v5
  let main_c_1 : IVec S_ 1 := constantI S_ 1 1#1
  let main_v7 : IVec S_ 1 := (fun x v => Host.reduce IntOp.andi x v reducesTo_S2x40x40_S_d0_1_2 h_S_) main_v6 main_c_1
  let main_v8 : IVec S_ 1 := andi main_v3 main_v7
  main_v8
-- ==== Kernel.lean ====
abbrev S100000x40 : Shape := ⟨2, ![100000, 40]⟩
abbrev S2x40x40 : Shape := ⟨3, ![2, 40, 40]⟩
abbrev S2x2000000 : Shape := ⟨2, ![2, 2000000]⟩
abbrev S1x2000000 : Shape := ⟨2, ![1, 2000000]⟩
abbrev S2000000 : Shape := ⟨1, ![2000000]⟩
abbrev S5000x40 : Shape := ⟨2, ![5000, 40]⟩
abbrev S5000 : Shape := ⟨1, ![5000]⟩
abbrev S5000x1 : Shape := ⟨2, ![5000, 1]⟩
abbrev S_ : Shape := ⟨0, ![]⟩
abbrev S2000000x1 : Shape := ⟨2, ![2000000, 1]⟩
abbrev S2000000x40 : Shape := ⟨2, ![2000000, 40]⟩
abbrev S1x40x40 : Shape := ⟨3, ![1, 40, 40]⟩
abbrev S40x40 : Shape := ⟨2, ![40, 40]⟩

abbrev nBuf : Space → Nat
  | .hbm => 40
  | .vmem => 14
  | .smem => 0
  | _ => 0

abbrev bufTy : (tb : Table) → Fin (tcTables nBuf tb) → BufTy
  | .hbm, ⟨0, _⟩ => ⟨S100000x40, .f32⟩
  | .hbm, ⟨1, _⟩ => ⟨S2x40x40, .f32⟩
  | .hbm, ⟨2, _⟩ => ⟨S2x2000000, .i32⟩
  | .hbm, ⟨3, _⟩ => ⟨S1x2000000, .i32⟩
  | .hbm, ⟨4, _⟩ => ⟨S2000000, .i32⟩
  | .hbm, ⟨5, _⟩ => ⟨S1x2000000, .i32⟩
  | .hbm, ⟨6, _⟩ => ⟨S2000000, .i32⟩
  | .hbm, ⟨7, _⟩ => ⟨S100000x40, .f32⟩
  | .hbm, ⟨8, _⟩ => ⟨S_, .i32⟩
  | .hbm, ⟨9, _⟩ => ⟨S2000000, .i32⟩
  | .hbm, ⟨10, _⟩ => ⟨S2000000, .i1⟩
  | .hbm, ⟨11, _⟩ => ⟨S_, .i32⟩
  | .hbm, ⟨12, _⟩ => ⟨S2000000, .i32⟩
  | .hbm, ⟨13, _⟩ => ⟨S2000000, .i32⟩
  | .hbm, ⟨14, _⟩ => ⟨S2000000, .i32⟩
  | .hbm, ⟨15, _⟩ => ⟨S2000000x1, .i32⟩
  | .hbm, ⟨16, _⟩ => ⟨S2000000x40, .f32⟩
  | .hbm, ⟨17, _⟩ => ⟨S_, .f32⟩
  | .hbm, ⟨18, _⟩ => ⟨S100000x40, .f32⟩
  | .hbm, ⟨19, _⟩ => ⟨S2000000x1, .i32⟩
  | .hbm, ⟨20, _⟩ => ⟨S100000x40, .f32⟩
  | .hbm, ⟨21, _⟩ => ⟨S1x40x40, .f32⟩
  | .hbm, ⟨22, _⟩ => ⟨S40x40, .f32⟩
  | .hbm, ⟨23, _⟩ => ⟨S100000x40, .f32⟩
  | .hbm, ⟨24, _⟩ => ⟨S_, .i32⟩
  | .hbm, ⟨25, _⟩ => ⟨S2000000, .i32⟩
  | .hbm, ⟨26, _⟩ => ⟨S2000000, .i1⟩
  | .hbm, ⟨27, _⟩ => ⟨S_, .i32⟩
  | .hbm, ⟨28, _⟩ => ⟨S2000000, .i32⟩
  | .hbm, ⟨29, _⟩ => ⟨S2000000, .i32⟩
  | .hbm, ⟨30, _⟩ => ⟨S2000000, .i32⟩
  | .hbm, ⟨31, _⟩ => ⟨S2000000x1, .i32⟩
  | .hbm, ⟨32, _⟩ => ⟨S2000000x40, .f32⟩
  | .hbm, ⟨33, _⟩ => ⟨S_, .f32⟩
  | .hbm, ⟨34, _⟩ => ⟨S100000x40, .f32⟩
  | .hbm, ⟨35, _⟩ => ⟨S2000000x1, .i32⟩
  | .hbm, ⟨36, _⟩ => ⟨S100000x40, .f32⟩
  | .hbm, ⟨37, _⟩ => ⟨S1x40x40, .f32⟩
  | .hbm, ⟨38, _⟩ => ⟨S40x40, .f32⟩
  | .hbm, ⟨39, _⟩ => ⟨S100000x40, .f32⟩
  | .local _ .vmem, ⟨0, _⟩ => ⟨S5000x40, .f32⟩
  | .local _ .vmem, ⟨1, _⟩ => ⟨S5000x40, .f32⟩
  | .local _ .vmem, ⟨2, _⟩ => ⟨S5000x40, .f32⟩
  | .local _ .vmem, ⟨3, _⟩ => ⟨S5000x40, .f32⟩
  | .local _ .vmem, ⟨4, _⟩ => ⟨S5000x40, .f32⟩
  | .local _ .vmem, ⟨5, _⟩ => ⟨S5000x40, .f32⟩
  | .local _ .vmem, ⟨6, _⟩ => ⟨S40x40, .f32⟩
  | .local _ .vmem, ⟨7, _⟩ => ⟨S5000x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S40x40, .f32⟩
  | .local _ .vmem, ⟨12, _⟩ => ⟨S5000x40, .f32⟩
  | .local _ .vmem, ⟨13, _⟩ => ⟨S5000x40, .f32⟩
  | _, _ => ⟨S100000x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x40 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x40 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S40x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  inb_S5000x40_S5000x40_0_0 : ∀ a, (![0, 0] : Fin 2 → Nat) a + S5000x40.size a ≤ S5000x40.size a
  h_S5000x40 : 0 < S5000x40.numel
  reduces_S5000x40_S5000 : S5000x40.Reduces [1] S5000
  shapeCasts_S5000_S5000x1 : S5000.ShapeCasts S5000x1
  broadcasts_S5000x1_S5000x40 : S5000x1.Broadcasts S5000x40
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x40 : S_.BroadcastsInDim S100000x40 (![] : Fin 0 → Fin S100000x40.rank)
  slices_S2x40x40_S1x40x40_0_0_0 : S2x40x40.Slices ![0, 0, 0] S1x40x40
  shapeCasts_S1x40x40_S40x40 : S1x40x40.ShapeCasts S40x40
  shapeCasts_S5000x40_S5000x40 : S5000x40.ShapeCasts S5000x40
  inb_S40x40_S40x40_0_0 : ∀ a, (![0, 0] : Fin 2 → Nat) a + S40x40.size a ≤ S40x40.size a
  h_S40x40 : 0 < S40x40.numel
  shapeCasts_S40x40_S40x40 : S40x40.ShapeCasts S40x40
  slices_S2x40x40_S1x40x40_1_0_0 : S2x40x40.Slices ![1, 0, 0] S1x40x40
  gather_S100000x40_S2000000x1_S2000000x40_1_0_n_n_0_1_140_wf : GatherDims.WF S100000x40 S2000000x1 S2000000x40 [1] [0] [] [0] [] 1 ![1, 40]
  scatter_S100000x40_S2000000x1_S2000000x40_1_0_0_1_wf : ScatterDims.WF S100000x40 S2000000x1 S2000000x40 [1] [0] [0] 1
  dot_S5000x40_S40x40_S5000x40_1_0_0_1_n_n_wf : DotDims.WF S5000x40 S40x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x40.size a ≤ S100000x40.size a
  hwx0_0 : ∀ i : grid0.Coords, EltTy.bits .f32 = 32 ∨ (Rect.block (s := S100000x40) S5000x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x40.size a ≤ S100000x40.size a
  hwx0_1 : ∀ i : grid0.Coords, EltTy.bits .f32 = 32 ∨ (Rect.block (s := S100000x40) S5000x40.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x40.size a ≤ S100000x40.size a
  hwx1_0 : ∀ i : grid1.Coords, EltTy.bits .f32 = 32 ∨ (Rect.block (s := S100000x40) S5000x40.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S40x40.size a ≤ S40x40.size a
  hwx1_1 : ∀ i : grid1.Coords, EltTy.bits .f32 = 32 ∨ (Rect.block (s := S40x40) S40x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40x40.size a ≤ S40x40.size a
  hwx2_1 : ∀ i : grid2.Coords, EltTy.bits .f32 = 32 ∨ (Rect.block (s := S40x40) S40x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def gather_S100000x40_S2000000x1_S2000000x40_1_0_n_n_0_1_140 : GatherDims S100000x40 S2000000x1 S2000000x40 where
  offsetDims := [1]
  collapsedSliceDims := [0]
  operandBatchingDims := []
  startIndicesBatchingDims := []
  startIndexMap := [0]
  indexVectorDim := 1
  sliceSizes := ![1, 40]
  wf := gather_S100000x40_S2000000x1_S2000000x40_1_0_n_n_0_1_140_wf
def scatter_S100000x40_S2000000x1_S2000000x40_1_0_0_1 : ScatterDims S100000x40 S2000000x1 S2000000x40 where
  updateWindowDims := [1]
  insertedWindowDims := [0]
  scatterDimsToOperandDims := [0]
  indexVectorDim := 1
  wf := scatter_S100000x40_S2000000x1_S2000000x40_1_0_0_1_wf
def dot_S5000x40_S40x40_S5000x40_1_0_0_1_n_n : DotDims S5000x40 S40x40 S5000x40 where
  lhsContracting := [1]
  rhsContracting := [0]
  lhsNonContracting := [0]
  rhsNonContracting := [1]
  lhsBatch := []
  rhsBatch := []
  wf := dot_S5000x40_S40x40_S5000x40_1_0_0_1_n_n_wf

abbrev win0_0 : Pipeline.Window sig grid0 :=
  Pipeline.Window.ofSpec (Memref.whole main_arg0) S5000x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x40.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v14) S5000x40.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S40x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v27) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S40x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x40 : Shape := ⟨2, ![100000, 40]⟩
abbrev S2x40x40 : Shape := ⟨3, ![2, 40, 40]⟩
abbrev S2x2000000 : Shape := ⟨2, ![2, 2000000]⟩
abbrev S1x2000000 : Shape := ⟨2, ![1, 2000000]⟩
abbrev S2000000 : Shape := ⟨1, ![2000000]⟩
abbrev S_ : Shape := ⟨0, ![]⟩
abbrev S100000 : Shape := ⟨1, ![100000]⟩
abbrev S100000x1 : Shape := ⟨2, ![100000, 1]⟩
abbrev S2000000x1 : Shape := ⟨2, ![2000000, 1]⟩
abbrev S2000000x40 : Shape := ⟨2, ![2000000, 40]⟩
abbrev S1x40x40 : Shape := ⟨3, ![1, 40, 40]⟩
abbrev S40x40 : Shape := ⟨2, ![40, 40]⟩

abbrev nBuf : Space → Nat
  | .hbm => 79
  | .vmem => 0
  | .smem => 0
  | _ => 0

abbrev bufTy : (tb : Table) → Fin (tcTables nBuf tb) → BufTy
  | .hbm, ⟨0, _⟩ => ⟨S100000x40, .f32⟩
  | .hbm, ⟨1, _⟩ => ⟨S2x40x40, .f32⟩
  | .hbm, ⟨2, _⟩ => ⟨S2x2000000, .i32⟩
  | .hbm, ⟨3, _⟩ => ⟨S1x2000000, .i32⟩
  | .hbm, ⟨4, _⟩ => ⟨S2000000, .i32⟩
  | .hbm, ⟨5, _⟩ => ⟨S1x2000000, .i32⟩
  | .hbm, ⟨6, _⟩ => ⟨S2000000, .i32⟩
  | .hbm, ⟨7, _⟩ => ⟨S100000x40, .f32⟩
  | .hbm, ⟨8, _⟩ => ⟨S_, .f32⟩
  | .hbm, ⟨9, _⟩ => ⟨S100000, .f32⟩
  | .hbm, ⟨10, _⟩ => ⟨S100000x1, .f32⟩
  | .hbm, ⟨11, _⟩ => ⟨S100000x1, .f32⟩
  | .hbm, ⟨12, _⟩ => ⟨S_, .f32⟩
  | .hbm, ⟨13, _⟩ => ⟨S100000x1, .f32⟩
  | .hbm, ⟨14, _⟩ => ⟨S100000x1, .f32⟩
  | .hbm, ⟨15, _⟩ => ⟨S100000x40, .f32⟩
  | .hbm, ⟨16, _⟩ => ⟨S100000x40, .f32⟩
  | .hbm, ⟨17, _⟩ => ⟨S_, .i32⟩
  | .hbm, ⟨18, _⟩ => ⟨S2000000, .i32⟩
  | .hbm, ⟨19, _⟩ => ⟨S2000000, .i1⟩
  | .hbm, ⟨20, _⟩ => ⟨S_, .i32⟩
  | .hbm, ⟨21, _⟩ => ⟨S2000000, .i32⟩
  | .hbm, ⟨22, _⟩ => ⟨S2000000, .i32⟩
  | .hbm, ⟨23, _⟩ => ⟨S2000000, .i32⟩
  | .hbm, ⟨24, _⟩ => ⟨S2000000x1, .i32⟩
  | .hbm, ⟨25, _⟩ => ⟨S2000000x40, .f32⟩
  | .hbm, ⟨26, _⟩ => ⟨S_, .f32⟩
  | .hbm, ⟨27, _⟩ => ⟨S100000x40, .f32⟩
  | .hbm, ⟨28, _⟩ => ⟨S2000000x1, .i32⟩
  | .hbm, ⟨29, _⟩ => ⟨S100000x40, .f32⟩
  | .hbm, ⟨30, _⟩ => ⟨S1x40x40, .f32⟩
  | .hbm, ⟨31, _⟩ => ⟨S40x40, .f32⟩
  | .hbm, ⟨32, _⟩ => ⟨S100000x40, .f32⟩
  | .hbm, ⟨33, _⟩ => ⟨S_, .f32⟩
  | .hbm, ⟨34, _⟩ => ⟨S100000x40, .f32⟩
  | .hbm, ⟨35, _⟩ => ⟨S100000x40, .f32⟩
  | .hbm, ⟨36, _⟩ => ⟨S100000x40, .f32⟩
  | .hbm, ⟨37, _⟩ => ⟨S_, .f32⟩
  | .hbm, ⟨38, _⟩ => ⟨S100000, .f32⟩
  | .hbm, ⟨39, _⟩ => ⟨S100000x1, .f32⟩
  | .hbm, ⟨40, _⟩ => ⟨S100000x1, .f32⟩
  | .hbm, ⟨41, _⟩ => ⟨S_, .f32⟩
  | .hbm, ⟨42, _⟩ => ⟨S100000x1, .f32⟩
  | .hbm, ⟨43, _⟩ => ⟨S100000x1, .f32⟩
  | .hbm, ⟨44, _⟩ => ⟨S100000x40, .f32⟩
  | .hbm, ⟨45, _⟩ => ⟨S100000x40, .f32⟩
  | .hbm, ⟨46, _⟩ => ⟨S_, .i32⟩
  | .hbm, ⟨47, _⟩ => ⟨S2000000, .i32⟩
  | .hbm, ⟨48, _⟩ => ⟨S2000000, .i1⟩
  | .hbm, ⟨49, _⟩ => ⟨S_, .i32⟩
  | .hbm, ⟨50, _⟩ => ⟨S2000000, .i32⟩
  | .hbm, ⟨51, _⟩ => ⟨S2000000, .i32⟩
  | .hbm, ⟨52, _⟩ => ⟨S2000000, .i32⟩
  | .hbm, ⟨53, _⟩ => ⟨S2000000x1, .i32⟩
  | .hbm, ⟨54, _⟩ => ⟨S2000000x40, .f32⟩
  | .hbm, ⟨55, _⟩ => ⟨S_, .f32⟩
  | .hbm, ⟨56, _⟩ => ⟨S100000x40, .f32⟩
  | .hbm, ⟨57, _⟩ => ⟨S2000000x1, .i32⟩
  | .hbm, ⟨58, _⟩ => ⟨S100000x40, .f32⟩
  | .hbm, ⟨59, _⟩ => ⟨S1x40x40, .f32⟩
  | .hbm, ⟨60, _⟩ => ⟨S40x40, .f32⟩
  | .hbm, ⟨61, _⟩ => ⟨S100000x40, .f32⟩
  | .hbm, ⟨62, _⟩ => ⟨S_, .f32⟩
  | .hbm, ⟨63, _⟩ => ⟨S100000x40, .f32⟩
  | .hbm, ⟨64, _⟩ => ⟨S100000x40, .f32⟩
  | .hbm, ⟨65, _⟩ => ⟨S_, .f32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x40, .f32⟩
  | .hbm, ⟨72, _⟩ => ⟨S100000x40, .f32⟩
  | .hbm, ⟨73, _⟩ => ⟨S100000x40, .f32⟩
  | .hbm, ⟨74, _⟩ => ⟨S_, .f32⟩
  | .hbm, ⟨75, _⟩ => ⟨S100000, .f32⟩
  | .hbm, ⟨76, _⟩ => ⟨S100000x1, .f32⟩
  | .hbm, ⟨77, _⟩ => ⟨S100000x40, .f32⟩
  | .hbm, ⟨78, _⟩ => ⟨S100000x40, .f32⟩
  | _, _ => ⟨S100000x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_cst : Ref sig .tc := ⟨.hbm, 33, rfl⟩
abbrev main_call1_v0 : Ref sig .tc := ⟨.hbm, 34, rfl⟩
abbrev main_v22 : Ref sig .tc := ⟨.hbm, 35, rfl⟩
abbrev main_call2_v0 : Ref sig .tc := ⟨.hbm, 36, rfl⟩
abbrev main_call2_cst : Ref sig .tc := ⟨.hbm, 37, rfl⟩
abbrev main_call2_v1 : Ref sig .tc := ⟨.hbm, 38, rfl⟩
abbrev main_call2_v2 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_c_3 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call3_cst : Ref sig .tc := ⟨.hbm, 62, rfl⟩
abbrev main_call3_v0 : Ref sig .tc := ⟨.hbm, 63, rfl⟩
abbrev main_v41 : Ref sig .tc := ⟨.hbm, 64, rfl⟩
abbrev main_cst_6 : Ref sig .tc := ⟨.hbm, 65, rfl⟩
abbrev main_v42 : Ref sig .tc := ⟨.hbm, 66, rfl⟩
abbrev main_cst_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_8 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x40_0_1 : S100000x1.BroadcastsInDim S100000x40 (![0, 1] : Fin 2 → Fin S100000x40.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000x40 : S_.BroadcastsInDim S100000x40 (![] : Fin 0 → Fin S100000x40.rank)
  slices_S2x40x40_S1x40x40_0_0_0 : S2x40x40.Slices ![0, 0, 0] S1x40x40
  shapeCasts_S1x40x40_S40x40 : S1x40x40.ShapeCasts S40x40
  slices_S2x40x40_S1x40x40_1_0_0 : S2x40x40.Slices ![1, 0, 0] S1x40x40
  bcast_S_S100000 : S_.BroadcastsInDim S100000 (![] : Fin 0 → Fin S100000.rank)
  gather_S100000x40_S2000000x1_S2000000x40_1_0_n_n_0_1_140_wf : GatherDims.WF S100000x40 S2000000x1 S2000000x40 [1] [0] [] [0] [] 1 ![1, 40]
  scatter_S100000x40_S2000000x1_S2000000x40_1_0_0_1_wf : ScatterDims.WF S100000x40 S2000000x1 S2000000x40 [1] [0] [0] 1
  dot_S100000x40_S40x40_S100000x40_1_0_0_1_n_n_wf : DotDims.WF S100000x40 S40x40 S100000x40 [1] [0] [0] [1] [] []

variable [Facts₀]

def gather_S100000x40_S2000000x1_S2000000x40_1_0_n_n_0_1_140 : GatherDims S100000x40 S2000000x1 S2000000x40 where
  offsetDims := [1]
  collapsedSliceDims := [0]
  operandBatchingDims := []
  startIndicesBatchingDims := []
  startIndexMap := [0]
  indexVectorDim := 1
  sliceSizes := ![1, 40]
  wf := gather_S100000x40_S2000000x1_S2000000x40_1_0_n_n_0_1_140_wf
def scatter_S100000x40_S2000000x1_S2000000x40_1_0_0_1 : ScatterDims S100000x40 S2000000x1 S2000000x40 where
  updateWindowDims := [1]
  insertedWindowDims := [0]
  scatterDimsToOperandDims := [0]
  indexVectorDim := 1
  wf := scatter_S100000x40_S2000000x1_S2000000x40_1_0_0_1_wf
def dot_S100000x40_S40x40_S100000x40_1_0_0_1_n_n : DotDims S100000x40 S40x40 S100000x40 where
  lhsContracting := [1]
  rhsContracting := [0]
  lhsNonContracting := [0]
  rhsNonContracting := [1]
  lhsBatch := []
  rhsBatch := []
  wf := dot_S100000x40_S40x40_S100000x40_1_0_0_1_n_n_wf

class Facts : Prop extends Facts₀ where

variable [Facts]
-- ==== Proof.RowLayers.lean ====
/-
  The three row-wise layers of a label-propagation network on a matrix of extended reals, each written as ONE
  function of the whole matrix, index by index, for any number of rows:

  • `normRows X`     — every row divided by its Euclidean length plus a fixed positive stabilizer;
  • `denseRelu A W`  — the matrix product A·W with the negative entries replaced by zero;
  • `softmaxRows Y`  — every row shifted by its largest entry, exponentiated, and divided by the row's sum.

  Each entry of a result depends on ONE row of the operand only (and on W). So a layer commutes with any selection of
  rows (`selRows`): applying it to a block of rows gives that block of rows of the result. This is what lets a
  computation tiled over blocks of rows be read as the whole-matrix function.
-/
import Idealize.ShloMosaic.PureOps.Ideal
import Idealize.ShloMosaic.Lib.ValueIdx

noncomputable section

open scoped BigOperators

namespace RowLayers

open Idealize.ShloMosaic Idealize.ShloMosaic.ValueIdx

/-- An a × b matrix of extended reals, indexed as a rank-2 array. -/
abbrev Mat (a b : ℕ) : Type := (⟨2, ![a, b]⟩ : Shape).Idx → EReal

/-- The stabilizer added to a row's length (the single-precision number nearest to 10⁻¹⁵). -/
def stab : EReal := Ideal.ofBits .f32 0x26901D7D#32
/-- The value of the zero word. -/
def zeroW : EReal := Ideal.ofBits .f32 0x00000000#32
/-- The value of the word of minus infinity: the start of a running maximum. -/
def bottomW : EReal := Ideal.ofBits .f32 0xFF800000#32

variable {a a' b K : ℕ}

/-- Every row divided by (its Euclidean length + the stabilizer). -/
def normRows (X : Mat a b) : Mat a b :=
  fun i => Ideal.div (X i) (Ideal.sqrt (∑ k : Fin b, X (ix2 (i 0) k) * X (ix2 (i 0) k)) + stab)

/-- The product A·W, negative entries replaced by zero. -/
def denseRelu (A : Mat a K) (W : Mat K b) : Mat a b :=
  fun i => max (∑ k : Fin K, A (ix2 (i 0) k) * W (ix2 k (i 1))) zeroW

/-- The largest entry of row r, as a running maximum from minus infinity. -/
def rowMax (Y : Mat a b) (r : Fin a) : EReal :=
  (Finset.univ : Finset (Fin b)).fold max bottomW (fun k => Y (ix2 r k))

/-- Every row shifted by its largest entry, exponentiated, divided by the sum of the row's exponentials. -/
def softmaxRows (Y : Mat a b) : Mat a b :=
  fun i => Ideal.div (Ideal.exp (Y i - rowMax Y (i 0)))
    (∑ k : Fin b, Ideal.exp (Y (ix2 (i 0) k) - rowMax Y (i 0)))

/-- The rows ρ 0, ρ 1, … of X, as a matrix of their own. -/
def selRows (ρ : Fin a' → Fin a) (X : Mat a b) : Mat a' b := fun y => X (ix2 (ρ (y 0)) (y 1))

/-- Normalizing selected rows is selecting normalized rows: a row's length is its own. -/
theorem normRows_selRows (ρ : Fin a' → Fin a) (X : Mat a b) :
    normRows (selRows ρ X) = selRows ρ (normRows X) := rfl

/-- A row of the product depends on that row of the left factor only. -/
theorem denseRelu_selRows (ρ : Fin a' → Fin a) (A : Mat a K) (W : Mat K b) :
    denseRelu (selRows ρ A) W = selRows ρ (denseRelu A W) := rfl

/-- The soft maximum of selected rows is the selected rows of the soft maximum. -/
theorem softmaxRows_selRows (ρ : Fin a' → Fin a) (Y : Mat a b) :
    softmaxRows (selRows ρ Y) = selRows ρ (softmaxRows Y) := rfl

/-- A running maximum from minus infinity is at least minus infinity: taking the maximum with it again changes nothing. -/
theorem max_bottomW_rowMax (Y : Mat a b) (r : Fin a) : max bottomW (rowMax Y r) = rowMax Y r :=
  max_eq_right ((Finset.le_fold_max _).mpr (Or.inl le_rfl))

end RowLayers

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibRowMax.lean ====
/-
  GENERAL LEMMA: the largest entry of each row of a rank-2 array — what `max(x, axis=-1)` becomes in a vector
  program — read at an index given by coordinates.
  • `multiReduction_maximumf_axis1_apply`: the lane maximum of an `[a, b]` array of extended reals, folded from the
    accumulator's word, at `i`, is the maximum over `k` of the entries `(i, k)` of row `i`, folded from that word's value.
-/
import Idealize.ShloMosaic.Lib.ValueIdx
import Idealize.ShloMosaic.PureOps.Ideal.Laws

noncomputable section

namespace Idealize.ShloMosaic.ValueIdx

open Idealize.ShloMosaic

/-- The lane maximum of an `[a, b]` array of extended reals: at `i` it is the fold of `max`, from the accumulator word's
    value, over the entries of row `i`. -/
theorem multiReduction_maximumf_axis1_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  refine congrArg (fun f => Finset.fold max (Ideal.ofBits .f32 acc) f (Finset.univ : Finset (Fin b))) (funext fun k => congrArg src ?_)
  funext c
  match c with
  | ⟨0, _⟩ => exact Fin.ext rfl
  | ⟨1, _⟩ => exact Fin.ext rfl

end Idealize.ShloMosaic.ValueIdx

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.BlockLayers.lean ====
/-
  What each of the three kernel bodies stores, as a function of the blocks it loads, on the extended reals: a block
  of 5000 rows goes through the row layers of `RowLayers`.

  • body 0 stores `normRows x`;
  • body 1 stores `normRows (denseRelu x w)`;
  • body 2 stores `softmaxRows (denseRelu x w)`.

  A lane sum kept as a column and broadcast back over the 40 lanes reads, at (p, q), the sum of row p; the lane maximum
  likewise the running maximum of row p; the 5000×40 by 40×40 product into the zero accumulator the sum over k.
-/
import proofs.«112633_j85856396248060_1_alg».proof.Proof.Gen.KernelIdeal.Skeleton
import proofs.«112633_j85856396248060_1_alg».proof.Proof.RowLayers
import proofs.«112633_j85856396248060_1_alg».proof.Proof.LibKeepdims
import proofs.«112633_j85856396248060_1_alg».proof.Proof.LibRowMax
import proofs.«112633_j85856396248060_1_alg».proof.Proof.LibPlainDot

noncomputable section

open scoped BigOperators

namespace Cert.KernelIdeal.Blocks

open Cert.KernelIdeal Cert.KernelIdeal.Gen Idealize.ShloMosaic Idealize.ShloMosaic.ValueIdx RowLayers

/-- The product of a block with the weights into the zero accumulator, negative entries cut to zero: the common
    head of bodies 1 and 2. -/
def mmRelu (x : Vec Ideal S5000x40 .f32) (w : Vec Ideal S40x40 .f32) : FVec Ideal S5000x40 .f32 :=
  maximumf (matmul (φ₁ := .f32) (φ₂ := .f32) dot_S5000x40_S40x40_S5000x40_1_0_0_1_n_n (some .fp32) (shapeCast S5000x40 x shapeCasts_S5000x40_S5000x40)
      (shapeCast S40x40 w shapeCasts_S40x40_S40x40) (constant S5000x40 .f32 0x00000000#32))
    (broadcast S5000x40 (Scalar.ofBits .f32 0x00000000#32))

/-- The column of lane maxima of a block, broadcast back over the lanes. -/
def laneMaxB (y : FVec Ideal S5000x40 .f32) : FVec Ideal S5000x40 .f32 :=
  broadcastTo S5000x40 (shapeCast S5000x1 (multiReduction .maximumf [1] S5000 y 0xFF800000#32 reduces_S5000x40_S5000 (.inl rfl) rfl)
    shapeCasts_S5000_S5000x1) broadcasts_S5000x1_S5000x40

/-- The column of lane sums of a block, broadcast back over the lanes. -/
def laneSumB (y : FVec Ideal S5000x40 .f32) : FVec Ideal S5000x40 .f32 :=
  broadcastTo S5000x40 (shapeCast S5000x1 (multiReduction .add [1] S5000 y 0x00000000#32 reduces_S5000x40_S5000 (.inl rfl) rfl)
    shapeCasts_S5000_S5000x1) broadcasts_S5000x1_S5000x40

/-- At (p, q) the broadcast lane maximum is the running maximum of row p. -/
theorem laneMaxB_apply (y : FVec Ideal S5000x40 .f32) (p : Fin 5000) (q : Fin 40) :
    laneMaxB y (ix2 p q) = rowMax y p :=
  (broadcastTo_a1_ab_apply _ broadcasts_S5000x1_S5000x40 p q).trans
    ((shapeCast_a_a1_apply _ shapeCasts_S5000_S5000x1 p 0).trans
      (multiReduction_maximumf_axis1_apply y 0xFF800000#32 reduces_S5000x40_S5000 (.inl rfl) rfl p))

/-- At (p, q) the broadcast lane sum is the sum of row p. -/
theorem laneSumB_apply (y : FVec Ideal S5000x40 .f32) (p : Fin 5000) (q : Fin 40) :
    laneSumB y (ix2 p q) = ∑ k : Fin 40, y (ix2 p k) :=
  (broadcastTo_a1_ab_apply _ broadcasts_S5000x1_S5000x40 p q).trans
    ((shapeCast_a_a1_apply _ shapeCasts_S5000_S5000x1 p 0).trans
      (multiReduction_add_axis1_apply y reduces_S5000x40_S5000 (.inl rfl) rfl p))

/-- Body 0's stored value is the block with every row normalized. -/
theorem pay0 (x : Vec Ideal S5000x40 .f32) : k0_pay1 (F := Ideal) x = normRows x := by
  funext j
  obtain ⟨p, q, rfl⟩ : ∃ (p : Fin 5000) (q : Fin 40), j = ix2 p q := ⟨j 0, j 1, eq_ix2 j⟩
  unfold k0_pay1
  refine congrArg (Ideal.div (x (ix2 p q))) ?_
  refine (broadcastTo_a1_ab_apply _ broadcasts_S5000x1_S5000x40 p q).trans ?_
  refine congrArg (fun z => Ideal.sqrt z + stab) ?_
  refine (shapeCast_a_a1_apply _ shapeCasts_S5000_S5000x1 p 0).trans ?_
  exact multiReduction_add_axis1_apply (mulf x x) reduces_S5000x40_S5000 (.inl rfl) rfl p

/-- The head of bodies 1 and 2 is the product with the weights, negative entries cut to zero. -/
theorem mmRelu_eq (x : Vec Ideal S5000x40 .f32) (w : Vec Ideal S40x40 .f32) : mmRelu x w = denseRelu x w := by
  funext j
  unfold mmRelu
  rw [shapeCast_self, shapeCast_self]
  refine congrArg (fun z => max z zeroW) ?_
  exact PlainDot.matmul_zero_apply dot_S5000x40_S40x40_S5000x40_1_0_0_1_n_n rfl (some .fp32) x w j

/-- Body 1's stored value: the product, cut at zero, every row normalized. -/
theorem pay1 (x : Vec Ideal S5000x40 .f32) (w : Vec Ideal S40x40 .f32) :
    k1_pay1 (F := Ideal) x w = normRows (denseRelu x w) :=
  (show k1_pay1 (F := Ideal) x w = k0_pay1 (F := Ideal) (mmRelu x w) from rfl).trans
    ((pay0 (mmRelu x w)).trans (congrArg normRows (mmRelu_eq x w)))

/-- The tail of body 2 on a block y: shift by the lane maximum, exponentiate, divide by the lane sum. -/
def softB (y : FVec Ideal S5000x40 .f32) : FVec Ideal S5000x40 .f32 :=
  divf (exp (subf y (laneMaxB y))) (laneSumB (exp (subf y (laneMaxB y))))

/-- That tail is the soft maximum of every row. -/
theorem softB_eq (y : FVec Ideal S5000x40 .f32) : softB y = softmaxRows y := by
  funext j
  obtain ⟨p, q, rfl⟩ : ∃ (p : Fin 5000) (q : Fin 40), j = ix2 p q := ⟨j 0, j 1, eq_ix2 j⟩
  have he : ∀ k : Fin 40, exp (subf y (laneMaxB y)) (ix2 p k) = Ideal.exp (y (ix2 p k) - rowMax y p) := fun k =>
    congrArg (fun z => Ideal.exp (y (ix2 p k) - z)) (laneMaxB_apply y p k)
  show Ideal.div (exp (subf y (laneMaxB y)) (ix2 p q)) (laneSumB (exp (subf y (laneMaxB y))) (ix2 p q)) = _
  rw [he q, laneSumB_apply]
  exact congrArg (Ideal.div _) (Finset.sum_congr rfl fun k _ => he k)

/-- Body 2's stored value: the product, cut at zero, then the soft maximum of every row. -/
theorem pay2 (x : Vec Ideal S5000x40 .f32) (w : Vec Ideal S40x40 .f32) :
    k2_pay1 (F := Ideal) x w = softmaxRows (denseRelu x w) :=
  (show k2_pay1 (F := Ideal) x w = softB (mmRelu x w) from rfl).trans
    ((softB_eq (mmRelu x w)).trans (congrArg softmaxRows (mmRelu_eq x w)))

end Cert.KernelIdeal.Blocks

end
-- ==== Proof.RegionValues.lean ====
/-
  Each of the three kernel regions, entered with ANY contents V of the buffers, leaves in its output array one whole-array
  function of the arrays it reads: region 0 the rows of its operand normalized; region 1 the product with its weights,
  cut at zero, rows normalized; region 2 the product, cut at zero, then the soft maximum of every row.

  A region runs its body on 20 blocks of 5000 rows. What point t writes back is the body's value on block t of the
  operand; since each layer acts row by row, that is block t of the layer applied to the whole operand. The 20 blocks
  cover the 100000 rows (row r lies in block r / 5000), so the array ends as the layer of the whole operand.
-/
import proofs.«112633_j85856396248060_1_alg».proof.Proof.Gen.KernelIdeal.Frame
import proofs.«112633_j85856396248060_1_alg».proof.Proof.BlockLayers
import Idealize.ShloMosaic.Lib.Pipeline.Value

set_option maxRecDepth 16384

noncomputable section

namespace Cert.KernelIdeal.Regions

open Cert.KernelIdeal Cert.KernelIdeal.Gen Cert.KernelIdeal.Blocks RowLayers
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- Row r of block t is row 5000·t + r of the array. -/
def blockRows (t : ℕ) (ht : t < 20) : Fin 5000 → Fin 100000 := fun r => ⟨t * 5000 + r.val, by have := r.isLt; omega⟩

theorem hz : (![0, 0] : Fin 2 → Nat) = fun _ => 0 := funext fun a => by fin_cases a <;> rfl

/-! ## Region 0 -/

/-- The printed index maps of region 0, decided over its 20 grid points: the row-block windows sit at block (t, 0). -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem tlt0 (t : Fin cfg0.N) : t.val < 20 := lt_of_lt_of_eq t.isLt N_0

/-- The input block at point t is rows 5000·t … 5000·t + 4999 of the array the region finds. -/
theorem read_in0 (c : Dev nD) (t : Fin cfg0.N) :
    iblk0 V c 0 t = selRows (blockRows t.val (tlt0 t)) (V c main_arg0) := by
  funext y
  show V c main_arg0 (((cfg0.win 0).blk t).view.emb y) = V c main_arg0 (ix2 (blockRows t.val (tlt0 t) (y 0)) (y 1))
  refine congrArg (V c main_arg0) ?_
  have e := idx0 t
  funext a; apply Fin.ext
  match a with
  | ⟨0, _⟩ => show win0_0.index t (0 : Fin 2) * 5000 + 1 * (y 0).val = t.val * 5000 + (y 0).val; omega
  | ⟨1, _⟩ => show win0_0.index t (1 : Fin 2) * 40 + 1 * (y 1).val = (y 1).val; omega

/-- Any whole array read through the output block at point t is its rows 5000·t … 5000·t + 4999. -/
theorem read_out0 (t : Fin cfg0.N) (G : S100000x40.Idx → EReal) :
    ((cfg0.win 1).blk t).view.read (Elt Ideal) G = selRows (blockRows t.val (tlt0 t)) G := by
  funext y
  show G (((cfg0.win 1).blk t).view.emb y) = G (ix2 (blockRows t.val (tlt0 t) (y 0)) (y 1))
  refine congrArg G ?_
  have e := idx0 t
  funext a; apply Fin.ext
  match a with
  | ⟨0, _⟩ => show win0_1.index t (0 : Fin 2) * 5000 + 1 * (y 0).val = t.val * 5000 + (y 0).val; omega
  | ⟨1, _⟩ => show win0_1.index t (1 : Fin 2) * 40 + 1 * (y 1).val = (y 1).val; omega

/-- What point t writes back is block t of the layer applied to the whole array: a layer commutes with taking rows. -/
theorem flushed0 (c : Dev nD) (t : Fin cfg0.N) :
    (dat0 V c).flushed 1 t = ((cfg0.win 1).blk t).view.read (Elt Ideal) (normRows (V c main_arg0)) := by
  show (cfg0.win 1).cut (grid0.coords t) ((dat0 V c).after 1 t) = _
  rw [after0_1]
  unfold out0_1
  rw [View.canon_unit_zero hz]
  simp only [View.ld_unit_zero (S := S5000x40) hz]
  rw [read_out0 t, read_in0 V c t]
  exact (pay0 _).trans (normRows_selRows _ _)

/-- An index of the array is in point t's output block iff each coordinate is in the block's range. -/
theorem mem_blk0 (t : Fin cfg0.N) (i : S100000x40.Idx) :
    i ∈ ((cfg0.win 1).blk t).view.set ↔ ∀ a : Fin 2, win0_1.index t a * S5000x40.size a ≤ (i a).val ∧ (i a).val < win0_1.index t a * S5000x40.size a + S5000x40.size a := by
  show i ∈ ((View.whole main_v4).slice (win0_1.rect t)).set ↔ _
  rw [View.set_slice_whole, Rect.mem_set_unit]
  exact Iff.rfl

/-- Every block of rows is some point's. -/
theorem onto0 : ∀ q : Fin 20, ∃ t : Fin cfg0.N, win0_1.index t = ![q.val, 0] :=
  (by decide +kernel : ∀ q : Fin 20, ∃ t : Fin grid0.N, win0_1.index t = ![q.val, 0])

/-- The 20 output blocks cover the array: row r lies in block r / 5000. -/
theorem cover0 (i : S100000x40.Idx) :
    ∃ t : Fin cfg0.N, (cfg0.win 1).flush t = true ∧ i ∈ ((cfg0.win 1).blk t).view.set := by
  have hi0 : (i 0).val < 100000 := (i 0).isLt
  have hi1 : (i 1).val < 40 := (i 1).isLt
  obtain ⟨t, ht⟩ := onto0 ⟨(i 0).val / 5000, by omega⟩
  have q0 : win0_1.index t (0 : Fin 2) = (i 0).val / 5000 := congrFun ht 0
  have q1 : win0_1.index t (1 : Fin 2) = 0 := congrFun ht 1
  refine ⟨t, flush0_1 t, ?_⟩
  rw [mem_blk0]
  intro a
  match a with
  | ⟨0, _⟩ => show win0_1.index t (0 : Fin 2) * 5000 ≤ (i 0).val ∧ (i 0).val < win0_1.index t (0 : Fin 2) * 5000 + 5000; omega
  | ⟨1, _⟩ => show win0_1.index t (1 : Fin 2) * 40 ≤ (i 1).val ∧ (i 1).val < win0_1.index t (1 : Fin 2) * 40 + 40; omega

/-- THE ARRAY region 0 leaves: the layer applied to the whole array it found. -/
theorem final0 (c : Dev nD) : (dat0 V c).arrAt 1 cfg0.N = normRows (V c main_arg0) :=
  (dat0 V c).arrAt_eq_of_cover 1 (normRows (V c main_arg0)) (fun t _ => flushed0 V c t) cover0

/-! ## Region 1 -/

/-- The printed index maps of region 1, decided over its 20 grid points: the row-block windows sit at block (t, 0), the weights' window at block (0, 0). -/
theorem idx1 : ∀ t : Fin cfg1.N, win1_0.index t (0 : Fin 2) = t.val ∧ win1_0.index t (1 : Fin 2) = 0
    ∧ win1_2.index t (0 : Fin 2) = t.val ∧ win1_2.index t (1 : Fin 2) = 0
    ∧ win1_1.index t (0 : Fin 2) = 0 ∧ win1_1.index t (1 : Fin 2) = 0 :=
  (by decide +kernel : ∀ t : Fin grid1.N, _)

theorem tlt1 (t : Fin cfg1.N) : t.val < 20 := lt_of_lt_of_eq t.isLt N_1

/-- The input block at point t is rows 5000·t … 5000·t + 4999 of the array the region finds. -/
theorem read_in1 (c : Dev nD) (t : Fin cfg1.N) :
    iblk1 V c 0 t = selRows (blockRows t.val (tlt1 t)) (V c main_v14) := by
  funext y
  show V c main_v14 (((cfg1.win 0).blk t).view.emb y) = V c main_v14 (ix2 (blockRows t.val (tlt1 t) (y 0)) (y 1))
  refine congrArg (V c main_v14) ?_
  have e := idx1 t
  funext a; apply Fin.ext
  match a with
  | ⟨0, _⟩ => show win1_0.index t (0 : Fin 2) * 5000 + 1 * (y 0).val = t.val * 5000 + (y 0).val; omega
  | ⟨1, _⟩ => show win1_0.index t (1 : Fin 2) * 40 + 1 * (y 1).val = (y 1).val; omega

/-- The weights' block at every point is the whole 40×40 array. -/
theorem read_w1 (c : Dev nD) (t : Fin cfg1.N) : iblk1 V c 1 t = V c main_v16 := by
  funext y
  show V c main_v16 (((cfg1.win 1).blk t).view.emb y) = V c main_v16 y
  refine congrArg (V c main_v16) ?_
  have e := idx1 t
  funext a; apply Fin.ext
  match a with
  | ⟨0, _⟩ => show win1_1.index t (0 : Fin 2) * 40 + 1 * (y 0).val = (y 0).val; omega
  | ⟨1, _⟩ => show win1_1.index t (1 : Fin 2) * 40 + 1 * (y 1).val = (y 1).val; omega

/-- Any whole array read through the output block at point t is its rows 5000·t … 5000·t + 4999. -/
theorem read_out1 (t : Fin cfg1.N) (G : S100000x40.Idx → EReal) :
    ((cfg1.win 2).blk t).view.read (Elt Ideal) G = selRows (blockRows t.val (tlt1 t)) G := by
  funext y
  show G (((cfg1.win 2).blk t).view.emb y) = G (ix2 (blockRows t.val (tlt1 t) (y 0)) (y 1))
  refine congrArg G ?_
  have e := idx1 t
  funext a; apply Fin.ext
  match a with
  | ⟨0, _⟩ => show win1_2.index t (0 : Fin 2) * 5000 + 1 * (y 0).val = t.val * 5000 + (y 0).val; omega
  | ⟨1, _⟩ => show win1_2.index t (1 : Fin 2) * 40 + 1 * (y 1).val = (y 1).val; omega

/-- What point t writes back is block t of the layer applied to the whole array: a layer commutes with taking rows. -/
theorem flushed1 (c : Dev nD) (t : Fin cfg1.N) :
    (dat1 V c).flushed 2 t = ((cfg1.win 2).blk t).view.read (Elt Ideal) (normRows (denseRelu (V c main_v14) (V c main_v16))) := by
  show (cfg1.win 2).cut (grid1.coords t) ((dat1 V c).after 2 t) = _
  rw [after1_2]
  unfold out1_2
  rw [View.canon_unit_zero hz]
  simp only [View.ld_unit_zero (S := S5000x40) hz, View.ld_unit_zero (S := S40x40) hz]
  rw [read_out1 t, read_in1 V c t, read_w1 V c t]
  exact (pay1 _ _).trans ((congrArg normRows (denseRelu_selRows _ _ _)).trans (normRows_selRows _ _))

/-- An index of the array is in point t's output block iff each coordinate is in the block's range. -/
theorem mem_blk1 (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v17).slice (win1_2.rect t)).set ↔ _
  rw [View.set_slice_whole, Rect.mem_set_unit]
  exact Iff.rfl

/-- Every block of rows is some point's. -/
theorem onto1 : ∀ q : Fin 20, ∃ t : Fin cfg1.N, win1_2.index t = ![q.val, 0] :=
  (by decide +kernel : ∀ q : Fin 20, ∃ t : Fin grid1.N, win1_2.index t = ![q.val, 0])

/-- The 20 output blocks cover the array: row r lies in block r / 5000. -/
theorem cover1 (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  obtain ⟨t, ht⟩ := onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- THE ARRAY region 1 leaves: the layer applied to the whole array it found. -/
theorem final1 (c : Dev nD) : (dat1 V c).arrAt 2 cfg1.N = normRows (denseRelu (V c main_v14) (V c main_v16)) :=
  (dat1 V c).arrAt_eq_of_cover 2 (normRows (denseRelu (V c main_v14) (V c main_v16))) (fun t _ => flushed1 V c t) cover1

/-! ## Region 2 -/

/-- The printed index maps of region 2, decided over its 20 grid points: the row-block windows sit at block (t, 0), the weights' window at block (0, 0). -/
theorem idx2 : ∀ t : Fin cfg2.N, win2_0.index t (0 : Fin 2) = t.val ∧ win2_0.index t (1 : Fin 2) = 0
    ∧ win2_2.index t (0 : Fin 2) = t.val ∧ win2_2.index t (1 : Fin 2) = 0
    ∧ win2_1.index t (0 : Fin 2) = 0 ∧ win2_1.index t (1 : Fin 2) = 0 :=
  (by decide +kernel : ∀ t : Fin grid2.N, _)

theorem tlt2 (t : Fin cfg2.N) : t.val < 20 := lt_of_lt_of_eq t.isLt N_2

/-- The input block at point t is rows 5000·t … 5000·t + 4999 of the array the region finds. -/
theorem read_in2 (c : Dev nD) (t : Fin cfg2.N) :
    iblk2 V c 0 t = selRows (blockRows t.val (tlt2 t)) (V c main_v27) := by
  funext y
  show V c main_v27 (((cfg2.win 0).blk t).view.emb y) = V c main_v27 (ix2 (blockRows t.val (tlt2 t) (y 0)) (y 1))
  refine congrArg (V c main_v27) ?_
  have e := idx2 t
  funext a; apply Fin.ext
  match a with
  | ⟨0, _⟩ => show win2_0.index t (0 : Fin 2) * 5000 + 1 * (y 0).val = t.val * 5000 + (y 0).val; omega
  | ⟨1, _⟩ => show win2_0.index t (1 : Fin 2) * 40 + 1 * (y 1).val = (y 1).val; omega

/-- The weights' block at every point is the whole 40×40 array. -/
theorem read_w2 (c : Dev nD) (t : Fin cfg2.N) : iblk2 V c 1 t = V c main_v29 := by
  funext y
  show V c main_v29 (((cfg2.win 1).blk t).view.emb y) = V c main_v29 y
  refine congrArg (V c main_v29) ?_
  have e := idx2 t
  funext a; apply Fin.ext
  match a with
  | ⟨0, _⟩ => show win2_1.index t (0 : Fin 2) * 40 + 1 * (y 0).val = (y 0).val; omega
  | ⟨1, _⟩ => show win2_1.index t (1 : Fin 2) * 40 + 1 * (y 1).val = (y 1).val; omega

/-- Any whole array read through the output block at point t is its rows 5000·t … 5000·t + 4999. -/
theorem read_out2 (t : Fin cfg2.N) (G : S100000x40.Idx → EReal) :
    ((cfg2.win 2).blk t).view.read (Elt Ideal) G = selRows (blockRows t.val (tlt2 t)) G := by
  funext y
  show G (((cfg2.win 2).blk t).view.emb y) = G (ix2 (blockRows t.val (tlt2 t) (y 0)) (y 1))
  refine congrArg G ?_
  have e := idx2 t
  funext a; apply Fin.ext
  match a with
  | ⟨0, _⟩ => show win2_2.index t (0 : Fin 2) * 5000 + 1 * (y 0).val = t.val * 5000 + (y 0).val; omega
  | ⟨1, _⟩ => show win2_2.index t (1 : Fin 2) * 40 + 1 * (y 1).val = (y 1).val; omega

/-- What point t writes back is block t of the layer applied to the whole array: a layer commutes with taking rows. -/
theorem flushed2 (c : Dev nD) (t : Fin cfg2.N) :
    (dat2 V c).flushed 2 t = ((cfg2.win 2).blk t).view.read (Elt Ideal) (softmaxRows (denseRelu (V c main_v27) (V c main_v29))) := by
  show (cfg2.win 2).cut (grid2.coords t) ((dat2 V c).after 2 t) = _
  rw [after2_2]
  unfold out2_2
  rw [View.canon_unit_zero hz]
  simp only [View.ld_unit_zero (S := S5000x40) hz, View.ld_unit_zero (S := S40x40) hz]
  rw [read_out2 t, read_in2 V c t, read_w2 V c t]
  exact (pay2 _ _).trans ((congrArg softmaxRows (denseRelu_selRows _ _ _)).trans (softmaxRows_selRows _ _))

/-- An index of the array is in point t's output block iff each coordinate is in the block's range. -/
theorem mem_blk2 (t : Fin cfg2.N) (i : S100000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v30).slice (win2_2.rect t)).set ↔ _
  rw [View.set_slice_whole, Rect.mem_set_unit]
  exact Iff.rfl

/-- Every block of rows is some point's. -/
theorem onto2 : ∀ q : Fin 20, ∃ t : Fin cfg2.N, win2_2.index t = ![q.val, 0] :=
  (by decide +kernel : ∀ q : Fin 20, ∃ t : Fin grid2.N, win2_2.index t = ![q.val, 0])

/-- The 20 output blocks cover the array: row r lies in block r / 5000. -/
theorem cover2 (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- THE ARRAY region 2 leaves: the layer applied to the whole array it found. -/
theorem final2 (c : Dev nD) : (dat2 V c).arrAt 2 cfg2.N = softmaxRows (denseRelu (V c main_v27) (V c main_v29)) :=
  (dat2 V c).arrAt_eq_of_cover 2 (softmaxRows (denseRelu (V c main_v27) (V c main_v29))) (fun t _ => flushed2 V c t) cover2

end Cert.KernelIdeal.Regions

end
-- ==== Proof.KernelValue.lean ====
/-
  The kernel program's result array as ONE function of the three argument arrays, on the extended reals.

  Walking @main from the launch: the first host stretch cuts the edge list into its source row and its destination row;
  region 0 normalizes the rows of x; the second stretch gathers those rows at the sources and adds them up at the
  destinations (`aggK`, kept as one function and never opened) and cuts the first 40×40 weight matrix; region 1 is the
  dense layer with cut at zero and normalization; the third stretch aggregates again and cuts the second weight
  matrix; region 2 is the dense layer with cut at zero and the soft maximum of every row. So the result is

      softmaxRows (denseRelu (aggK (normRows (denseRelu (aggK (normRows x)) W₀))) W₁).

  A buffer no operation of a stretch writes, and no window of a region owns, keeps its contents across it.
-/
import proofs.«112633_j85856396248060_1_alg».proof.Proof.Gen.KernelIdeal.Frame
import proofs.«112633_j85856396248060_1_alg».proof.Proof.RegionValues
import Idealize.ShloMosaic.Lib.StableHlo.Run

set_option maxRecDepth 16384

noncomputable section

namespace Cert.KernelIdeal.Whole

open Cert.KernelIdeal Cert.KernelIdeal.Gen Cert.KernelIdeal.Regions RowLayers
open Idealize.ShloMosaic Idealize.ShloMosaic.TcCoe Idealize.ShloMosaic.StableHlo Idealize.SL.Sem

/-- The source nodes: row 0 of the edge list. -/
def srcOf (E : IVec S2x2000000 32) : IVec S2000000 32 :=
  shapeCast S2000000 (extractStridedSlice S1x2000000 ![0, 0] E slices_S2x2000000_S1x2000000_0_0) shapeCasts_S1x2000000_S2000000
/-- The destination nodes: row 1 of the edge list. -/
def dstOf (E : IVec S2x2000000 32) : IVec S2000000 32 :=
  shapeCast S2000000 (extractStridedSlice S1x2000000 ![1, 0] E slices_S2x2000000_S1x2000000_1_0) shapeCasts_S1x2000000_S2000000
/-- The first weight matrix. -/
def weight0 (Ws : FVec Ideal S2x40x40 .f32) : FVec Ideal S40x40 .f32 :=
  shapeCast S40x40 (extractStridedSlice S1x40x40 ![0, 0, 0] Ws slices_S2x40x40_S1x40x40_0_0_0) shapeCasts_S1x40x40_S40x40
/-- The second weight matrix. -/
def weight1 (Ws : FVec Ideal S2x40x40 .f32) : FVec Ideal S40x40 .f32 :=
  shapeCast S40x40 (extractStridedSlice S1x40x40 ![1, 0, 0] Ws slices_S2x40x40_S1x40x40_1_0_0) shapeCasts_S1x40x40_S40x40

/-- Gather the rows of X at the source nodes (a negative node number counted from the end) and add them up at the
    destination nodes, into zeros: the host's gather followed by its accumulating scatter. -/
def aggK (src dst : IVec S2000000 32) (X : FVec Ideal S100000x40 .f32) : FVec Ideal S100000x40 .f32 :=
  Host.scatterAdd scatter_S100000x40_S2000000x1_S2000000x40_1_0_0_1
    (broadcastInDim S100000x40 ![] bcast_S_S100000x40 (constant (F := Ideal) S_ .f32 0x00000000#32))
    (broadcastInDim S2000000x1 ![0] bcast_S2000000_S2000000x1_0 dst)
    (Host.gather gather_S100000x40_S2000000x1_S2000000x40_1_0_n_n_0_1_140 X
      (broadcastInDim S2000000x1 ![0] bcast_S2000000_S2000000x1_0
        (select (cmpi .slt src (broadcastInDim S2000000 ![] bcast_S_S2000000 (constantI S_ 32 0#32)))
          (addi src (broadcastInDim S2000000 ![] bcast_S_S2000000 (constantI S_ 32 100000#32))) src)))

variable (m : (ℓ : Loc nD τ sig) → Buf (Elt Ideal) ℓ) (ρ : Dev nD → PrngReg)

/-! ## After the first host stretch -/

theorem arg0_at1 (c : Dev nD) : W1 m ρ c (Proc.devRef .tc main_arg0) = m ((c : Thread nD τ).loc main_arg0) := by
  show StableHlo.after hostOps0 (W0 m ρ c) (Proc.devRef .tc main_arg0) = _
  after_results
theorem arg1_at1 (c : Dev nD) : W1 m ρ c (Proc.devRef .tc main_arg1) = m ((c : Thread nD τ).loc main_arg1) := by
  show StableHlo.after hostOps0 (W0 m ρ c) (Proc.devRef .tc main_arg1) = _
  after_results
theorem src_at1 (c : Dev nD) : W1 m ρ c (Proc.devRef .tc main_v1) = srcOf (m ((c : Thread nD τ).loc main_arg2)) := by
  show StableHlo.after hostOps0 (W0 m ρ c) (Proc.devRef .tc main_v1) = _
  after_results
  rfl
theorem dst_at1 (c : Dev nD) : W1 m ρ c (Proc.devRef .tc main_v3) = dstOf (m ((c : Thread nD τ).loc main_arg2)) := by
  show StableHlo.after hostOps0 (W0 m ρ c) (Proc.devRef .tc main_v3) = _
  after_results
  rfl

/-! ## Region 0 and the second host stretch -/

/-- Region 0 leaves the rows of x normalized. -/
theorem out0 (c : Dev nD) :
    W2 m ρ c (Proc.devRef .tc main_v4) = normRows (m ((c : Thread nD τ).loc main_arg0)) :=
  (W2_arr m ρ c 1).trans ((final0 (V1 m ρ) c).trans (congrArg normRows (arg0_at1 m ρ c)))

theorem arg1_at2 (c : Dev nD) : W2 m ρ c (Proc.devRef .tc main_arg1) = m ((c : Thread nD τ).loc main_arg1) :=
  (W2_of_ne m ρ c main_arg1 (by decide)).trans (arg1_at1 m ρ c)
theorem src_at2 (c : Dev nD) : W2 m ρ c (Proc.devRef .tc main_v1) = srcOf (m ((c : Thread nD τ).loc main_arg2)) :=
  (W2_of_ne m ρ c main_v1 (by decide)).trans (src_at1 m ρ c)
theorem dst_at2 (c : Dev nD) : W2 m ρ c (Proc.devRef .tc main_v3) = dstOf (m ((c : Thread nD τ).loc main_arg2)) :=
  (W2_of_ne m ρ c main_v3 (by decide)).trans (dst_at1 m ρ c)

theorem arg1_at3 (c : Dev nD) : W3 m ρ c (Proc.devRef .tc main_arg1) = m ((c : Thread nD τ).loc main_arg1) := by
  show StableHlo.after hostOps1 (W2 m ρ c) (Proc.devRef .tc main_arg1) = _
  after_results
  exact arg1_at2 m ρ c
theorem src_at3 (c : Dev nD) : W3 m ρ c (Proc.devRef .tc main_v1) = srcOf (m ((c : Thread nD τ).loc main_arg2)) := by
  show StableHlo.after hostOps1 (W2 m ρ c) (Proc.devRef .tc main_v1) = _
  after_results
  exact src_at2 m ρ c
theorem dst_at3 (c : Dev nD) : W3 m ρ c (Proc.devRef .tc main_v3) = dstOf (m ((c : Thread nD τ).loc main_arg2)) := by
  show StableHlo.after hostOps1 (W2 m ρ c) (Proc.devRef .tc main_v3) = _
  after_results
  exact dst_at2 m ρ c

/-- The second stretch aggregates region 0's result. -/
theorem agg_at3 (c : Dev nD) :
    W3 m ρ c (Proc.devRef .tc main_v14)
      = aggK (srcOf (m ((c : Thread nD τ).loc main_arg2))) (dstOf (m ((c : Thread nD τ).loc main_arg2)))
          (normRows (m ((c : Thread nD τ).loc main_arg0))) := by
  show StableHlo.after hostOps1 (W2 m ρ c) (Proc.devRef .tc main_v14) = _
  after_results
  rw [src_at2, dst_at2, out0]
  rfl

/-- and cuts the first weight matrix. -/
theorem weight_at3 (c : Dev nD) :
    W3 m ρ c (Proc.devRef .tc main_v16) = weight0 (m ((c : Thread nD τ).loc main_arg1)) := by
  show StableHlo.after hostOps1 (W2 m ρ c) (Proc.devRef .tc main_v16) = _
  after_results
  rw [arg1_at2]
  rfl

/-! ## Region 1 and the third host stretch -/

/-- The hidden layer: aggregate the normalized rows, multiply by the first weight matrix, cut at zero, normalize. -/
def hidden (x : FVec Ideal S100000x40 .f32) (Ws : FVec Ideal S2x40x40 .f32) (E : IVec S2x2000000 32) : Mat 100000 40 :=
  normRows (denseRelu (aggK (srcOf E) (dstOf E) (normRows x)) (weight0 Ws))

/-- The whole network: the hidden layer aggregated again, multiplied by the second weight matrix, cut at zero, and
    the soft maximum of every row. -/
def network (x : FVec Ideal S100000x40 .f32) (Ws : FVec Ideal S2x40x40 .f32) (E : IVec S2x2000000 32) : Mat 100000 40 :=
  softmaxRows (denseRelu (aggK (srcOf E) (dstOf E) (hidden x Ws E)) (weight1 Ws))

/-- Region 1 leaves the hidden layer. -/
theorem out1 (c : Dev nD) :
    W4 m ρ c (Proc.devRef .tc main_v17)
      = hidden (m ((c : Thread nD τ).loc main_arg0)) (m ((c : Thread nD τ).loc main_arg1)) (m ((c : Thread nD τ).loc main_arg2)) :=
  (W4_arr m ρ c 2).trans ((final1 (V3 m ρ) c).trans
    (congrArg₂ (fun (A : Mat 100000 40) (W : Mat 40 40) => normRows (denseRelu A W)) (agg_at3 m ρ c) (weight_at3 m ρ c)))

theorem arg1_at4 (c : Dev nD) : W4 m ρ c (Proc.devRef .tc main_arg1) = m ((c : Thread nD τ).loc main_arg1) :=
  (W4_of_ne m ρ c main_arg1 (by decide)).trans (arg1_at3 m ρ c)
theorem src_at4 (c : Dev nD) : W4 m ρ c (Proc.devRef .tc main_v1) = srcOf (m ((c : Thread nD τ).loc main_arg2)) :=
  (W4_of_ne m ρ c main_v1 (by decide)).trans (src_at3 m ρ c)
theorem dst_at4 (c : Dev nD) : W4 m ρ c (Proc.devRef .tc main_v3) = dstOf (m ((c : Thread nD τ).loc main_arg2)) :=
  (W4_of_ne m ρ c main_v3 (by decide)).trans (dst_at3 m ρ c)

/-- The third stretch aggregates the hidden layer. -/
theorem agg_at5 (c : Dev nD) :
    W5 m ρ c (Proc.devRef .tc main_v27)
      = aggK (srcOf (m ((c : Thread nD τ).loc main_arg2))) (dstOf (m ((c : Thread nD τ).loc main_arg2)))
          (hidden (m ((c : Thread nD τ).loc main_arg0)) (m ((c : Thread nD τ).loc main_arg1)) (m ((c : Thread nD τ).loc main_arg2))) := by
  show StableHlo.after hostOps2 (W4 m ρ c) (Proc.devRef .tc main_v27) = _
  after_results
  rw [src_at4, dst_at4, out1]
  rfl

/-- and cuts the second weight matrix. -/
theorem weight_at5 (c : Dev nD) :
    W5 m ρ c (Proc.devRef .tc main_v29) = weight1 (m ((c : Thread nD τ).loc main_arg1)) := by
  show StableHlo.after hostOps2 (W4 m ρ c) (Proc.devRef .tc main_v29) = _
  after_results
  rw [arg1_at4]
  rfl

/-! ## Region 2: the result -/

/-- THE RESULT ARRAY at the last boundary is the network of the three argument arrays. -/
theorem result (c : Dev nD) :
    W6 m ρ c (Proc.devRef .tc main_v30)
      = network (m ((c : Thread nD τ).loc main_arg0)) (m ((c : Thread nD τ).loc main_arg1)) (m ((c : Thread nD τ).loc main_arg2)) :=
  (W6_arr m ρ c 2).trans ((final2 (V5 m ρ) c).trans
    (congrArg₂ (fun (A : Mat 100000 40) (W : Mat 40 40) => softmaxRows (denseRelu A W)) (agg_at5 m ρ c) (weight_at5 m ρ c)))

end Cert.KernelIdeal.Whole

end
-- ==== Proof.LibHostRowMax.lean ====
/-
  GENERAL LEMMA: the host's reduce with a maximum body along the second axis of a rank-2 array — what
  `max(x, axis=1)` is in a host program — read at an index given by coordinates.
  • `hostReduce_maximumf_axis1_apply`: on the extended reals, the reduce of an `[a, b]` array along axis 1, at `i`, is the
    fold of `max` over the entries `(i, k)` of row `i`, started from the initial value's one element.
-/
import Idealize.ShloMosaic.Lib.ValueIdx
import Idealize.ShloMosaic.PureOps.Ideal.Laws
import Idealize.ShloMosaic.PureOps.Reduce

noncomputable section

namespace Idealize.ShloMosaic.ValueIdx

open Idealize.ShloMosaic

/-- The host's maximum along axis 1 of an `[a, b]` array of extended reals: at `i` it is the fold of `max`, from the
    initial value, over the entries of row `i`. -/
theorem hostReduce_maximumf_axis1_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduce FloatOps.maximumf x init h' hu (ix1 i)
      = (Finset.univ : Finset (Fin b)).fold max (init (Shape.Idx.first hu)) (fun k => x (ix2 i k)) := by
  rw [Host.reduce_eq_fold_single FloatOps.maximumf x _ h' h hu]
  refine congrArg (fun f => Finset.fold max (init (Shape.Idx.first hu)) f (Finset.univ : Finset (Fin b))) (funext fun k => congrArg x ?_)
  funext c
  match c with
  | ⟨0, _⟩ => exact Fin.ext rfl
  | ⟨1, _⟩ => exact Fin.ext rfl

end Idealize.ShloMosaic.ValueIdx

end
-- ==== Proof.RefLayers.lean ====
/-
  The reference program's stages, read as the row layers of `RowLayers` on whole 100000×40 matrices of extended
  reals. Writing `agg` for the two host operations that gather rows at the source nodes and add them up at the
  destination nodes (kept here as one function, never opened), the reference computes

      softmaxRows (denseRelu (agg (normRows (denseRelu (agg (normRows x)) W₀))) W₁).

  The host's sums start from the zero word, which is 0; its row maximum is a fold of `max` from minus infinity, and
  the extra `max` with minus infinity that follows changes nothing.
-/
import proofs.«112633_j85856396248060_1_alg».proof.Proof.Gen.ReferenceIdeal.Read
import proofs.«112633_j85856396248060_1_alg».proof.Proof.RowLayers
import proofs.«112633_j85856396248060_1_alg».proof.Proof.LibHostRowMax

noncomputable section

open scoped BigOperators

namespace Cert.ReferenceIdeal.Layers

open Cert.ReferenceIdeal Cert.ReferenceIdeal.Gen Cert.ReferenceIdeal.Read RowLayers
open Idealize.ShloMosaic Idealize.ShloMosaic.ValueIdx

variable (x0 : (⟨S100000x40, .f32⟩ : BufTy).Contents (Elt Ideal)) (x1 : (⟨S2x40x40, .f32⟩ : BufTy).Contents (Elt Ideal))
  (x2 : (⟨S2x2000000, .i32⟩ : BufTy).Contents (Elt Ideal))

/-- Gather the rows of X at the source nodes and add them up at the destination nodes (both read off the edge list):
    the host's gather followed by its accumulating scatter into zeros. -/
def agg (X : FVec Ideal S100000x40 .f32) : FVec Ideal S100000x40 .f32 :=
  Host.scatterAdd scatter_S100000x40_S2000000x1_S2000000x40_1_0_0_1 (val_main_v16 (F := Ideal)) (val_main_v17 (F := Ideal) x2)
    (Host.gather gather_S100000x40_S2000000x1_S2000000x40_1_0_n_n_0_1_140 X (val_main_v14 (F := Ideal) x2))

/-! Every index below is written with `ix2` / `ix1` of coordinates `p : Fin 100000`, `q k : Fin 40`. -/

theorem row_idx (p : Fin 100000) (q k : Fin 40) :
    idx_main_call0_v1 (idx_main_call0_v2 (idx_main_v7 (ix2 p q))) k = ix2 p k :=
  funext fun a => Fin.ext (by match a with | ⟨0, _⟩ => rfl | ⟨1, _⟩ => rfl)
theorem row_idx1 (p : Fin 100000) (q k : Fin 40) :
    idx_main_call2_v1 (idx_main_call2_v2 (idx_main_v26 (ix2 p q))) k = ix2 p k :=
  funext fun a => Fin.ext (by match a with | ⟨0, _⟩ => rfl | ⟨1, _⟩ => rfl)
theorem row_idx2 (p : Fin 100000) (q k : Fin 40) :
    idx_main_v49 (idx_main_v50 (idx_main_v51 (ix2 p q))) k = ix2 p k :=
  funext fun a => Fin.ext (by match a with | ⟨0, _⟩ => rfl | ⟨1, _⟩ => rfl)
theorem max_idx (p : Fin 100000) (q : Fin 40) : idx_main_v45 (idx_main_v46 (ix2 p q)) = ix1 p :=
  funext fun a => Fin.ext (by match a with | ⟨0, _⟩ => rfl)
theorem lidx21 (p : Fin 100000) (q k : Fin 40) : lidx_main_v21 (ix2 p q) k = ix2 p k :=
  funext fun a => Fin.ext (by match a with | ⟨0, _⟩ => rfl | ⟨1, _⟩ => rfl)
theorem ridx21 (p : Fin 100000) (q k : Fin 40) : ridx_main_v21 (ix2 p q) k = ix2 k q :=
  funext fun a => Fin.ext (by match a with | ⟨0, _⟩ => rfl | ⟨1, _⟩ => rfl)
theorem lidx40 (p : Fin 100000) (q k : Fin 40) : lidx_main_v40 (ix2 p q) k = ix2 p k :=
  funext fun a => Fin.ext (by match a with | ⟨0, _⟩ => rfl | ⟨1, _⟩ => rfl)
theorem ridx40 (p : Fin 100000) (q k : Fin 40) : ridx_main_v40 (ix2 p q) k = ix2 k q :=
  funext fun a => Fin.ext (by match a with | ⟨0, _⟩ => rfl | ⟨1, _⟩ => rfl)

/-- The first normalization is `normRows` of the input. -/
theorem stage_norm0 : val_main_v8 (F := Ideal) x0 = normRows x0 := by
  funext i
  obtain ⟨p, q, rfl⟩ : ∃ (p : Fin 100000) (q : Fin 40), i = ix2 p q := ⟨i 0, i 1, eq_ix2 i⟩
  rw [val_main_v8_apply, val_main_v7_apply, val_main_v6_apply, val_main_v4_apply, val_main_call0_v2_apply,
    val_main_call0_v1_apply, val_main_v5_apply, val_main_cst_apply, val_main_call0_cst_apply]
  simp only [val_main_call0_v0_apply, row_idx, Ideal.hostDivf_def, Ideal.addf_def, Ideal.hostUnary_sqrt_def, Ideal.mulf_def,
    Ideal.ofBits_def, Ideal.ofBits_zero_f32, zero_add]
  rfl

/-- The first aggregation is `agg` of the first normalization (the two host operations, unopened). -/
theorem stage_agg0 : val_main_v18 (F := Ideal) x0 x2 = agg x2 (val_main_v8 (F := Ideal) x0) := rfl

/-- The first dense layer: the product with W₀ (the first 40×40 slice of the weights), cut at zero. -/
theorem stage_dense0 :
    val_main_v22 (F := Ideal) x0 x1 x2 = denseRelu (val_main_v18 (F := Ideal) x0 x2) (val_main_v20 (F := Ideal) x1) := by
  funext i
  obtain ⟨p, q, rfl⟩ : ∃ (p : Fin 100000) (q : Fin 40), i = ix2 p q := ⟨i 0, i 1, eq_ix2 i⟩
  rw [val_main_v22_apply, val_main_v21_apply, val_main_call1_v0_apply, val_main_call1_cst_apply]
  simp only [lidx21, ridx21, Ideal.maximumf_def, Ideal.ofBits_def]
  generalize val_main_v18 (F := Ideal) x0 x2 = A
  generalize val_main_v20 (F := Ideal) x1 = W
  rfl

/-- The second normalization applies to the first dense layer the very operations the first applies to the input. -/
theorem norm1_same_ops :
    val_main_v27 (F := Ideal) x0 x1 x2 = val_main_v8 (F := Ideal) (val_main_v22 (F := Ideal) x0 x1 x2) := by
  unfold val_main_v27 val_main_v26 val_main_v25 val_main_v23 val_main_call2_v2 val_main_call2_v1 val_main_call2_v0
    val_main_v24 val_main_cst_2 val_main_call2_cst
    val_main_v8 val_main_v7 val_main_v6 val_main_v4 val_main_call0_v2 val_main_call0_v1 val_main_call0_v0
    val_main_v5 val_main_cst val_main_call0_cst
  rfl

/-- The second normalization is `normRows` of the first dense layer. -/
theorem stage_norm1 : val_main_v27 (F := Ideal) x0 x1 x2 = normRows (val_main_v22 (F := Ideal) x0 x1 x2) :=
  (norm1_same_ops x0 x1 x2).trans (stage_norm0 (val_main_v22 (F := Ideal) x0 x1 x2))

/-- The second aggregation is the same `agg`, of the second normalization. -/
theorem stage_agg1 : val_main_v37 (F := Ideal) x0 x1 x2 = agg x2 (val_main_v27 (F := Ideal) x0 x1 x2) := rfl

/-- The second dense layer: the product with W₁, cut at zero. -/
theorem stage_dense1 :
    val_main_v41 (F := Ideal) x0 x1 x2 = denseRelu (val_main_v37 (F := Ideal) x0 x1 x2) (val_main_v39 (F := Ideal) x1) := by
  funext i
  obtain ⟨p, q, rfl⟩ : ∃ (p : Fin 100000) (q : Fin 40), i = ix2 p q := ⟨i 0, i 1, eq_ix2 i⟩
  rw [val_main_v41_apply, val_main_v40_apply, val_main_call3_v0_apply, val_main_call3_cst_apply]
  simp only [lidx40, ridx40, Ideal.maximumf_def, Ideal.ofBits_def]
  generalize val_main_v37 (F := Ideal) x0 x1 x2 = A
  generalize val_main_v39 (F := Ideal) x1 = W
  rfl

/-- The host's row maximum, with its extra `max` against minus infinity, is the running maximum of the row. -/
theorem row_max (p : Fin 100000) :
    val_main_v44 (F := Ideal) x0 x1 x2 (ix1 p) = rowMax (val_main_v41 (F := Ideal) x0 x1 x2) p := by
  rw [val_main_v44_apply, val_main_v43_apply, val_main_cst_7_apply]
  unfold val_main_v42
  generalize val_main_v41 (F := Ideal) x0 x1 x2 = y
  rw [hostReduce_maximumf_axis1_apply y _ reducesTo_S100000x40_S100000_d1 (by decide) h_S_ p]
  exact max_bottomW_rowMax y p

/-- An entry shifted by its row's maximum and exponentiated. -/
theorem shifted_exp (p : Fin 100000) (q : Fin 40) :
    val_main_v48 (F := Ideal) x0 x1 x2 (ix2 p q)
      = Ideal.exp (val_main_v41 (F := Ideal) x0 x1 x2 (ix2 p q) - rowMax (val_main_v41 (F := Ideal) x0 x1 x2) p) := by
  rw [val_main_v48_apply, val_main_v47_apply, val_main_v46_apply, val_main_v45_apply, max_idx, row_max]
  simp only [Ideal.hostUnary_exp_def, Ideal.subf_def]

/-- The last stage is the soft maximum of every row of the second dense layer. -/
theorem stage_soft : val_main_v52 (F := Ideal) x0 x1 x2 = softmaxRows (val_main_v41 (F := Ideal) x0 x1 x2) := by
  funext i
  obtain ⟨p, q, rfl⟩ : ∃ (p : Fin 100000) (q : Fin 40), i = ix2 p q := ⟨i 0, i 1, eq_ix2 i⟩
  rw [val_main_v52_apply, val_main_v51_apply, val_main_v50_apply, val_main_v49_apply, val_main_cst_8_apply]
  simp only [shifted_exp, row_idx2, Ideal.hostDivf_def, Ideal.ofBits_def, Ideal.ofBits_zero_f32, zero_add]
  generalize val_main_v41 (F := Ideal) x0 x1 x2 = Y
  rfl

/-- THE REFERENCE'S RESULT as the composition of the layers. -/
theorem result_eq :
    val_main_v52 (F := Ideal) x0 x1 x2
      = softmaxRows (denseRelu (agg x2 (normRows (denseRelu (agg x2 (normRows x0)) (val_main_v20 (F := Ideal) x1))))
          (val_main_v39 (F := Ideal) x1)) := by
  rw [stage_soft, stage_dense1, stage_agg1, stage_norm1, stage_dense0, stage_agg0, stage_norm0]

end Cert.ReferenceIdeal.Layers

end
-- ==== Proof.Bridge.lean ====
/-
  The two programs compute ONE function. The reference's aggregation and the kernel program's are the same two host
  operations — gather the rows at the source nodes, add them up at the destination nodes — applied to the same cuts of
  the edge list, and the two programs cut the same two 40×40 matrices out of the weights. With these identified, the
  reference's composition of layers is the kernel program's network, term for term; the aggregation itself is never
  opened.
-/
import proofs.«112633_j85856396248060_1_alg».proof.Proof.RefLayers
import proofs.«112633_j85856396248060_1_alg».proof.Proof.KernelValue

noncomputable section

namespace Cert.Bridge

open Idealize.ShloMosaic RowLayers
open Cert.KernelIdeal.Whole

/-- The reference's aggregation is the kernel program's, on the same edge list. -/
theorem agg_eq (E : IVec Cert.KernelIdeal.S2x2000000 32) (X : FVec Ideal Cert.KernelIdeal.S100000x40 .f32) :
    Cert.ReferenceIdeal.Layers.agg E X = aggK (srcOf E) (dstOf E) X := rfl

/-- The reference's first weight matrix is the kernel program's. -/
theorem weight0_eq (Ws : FVec Ideal Cert.KernelIdeal.S2x40x40 .f32) :
    Cert.ReferenceIdeal.Read.val_main_v20 (F := Ideal) Ws = weight0 Ws := rfl

/-- The reference's second weight matrix is the kernel program's. -/
theorem weight1_eq (Ws : FVec Ideal Cert.KernelIdeal.S2x40x40 .f32) :
    Cert.ReferenceIdeal.Read.val_main_v39 (F := Ideal) Ws = weight1 Ws := rfl

/-- The reference's result, as composed from the layers, is the network. -/
theorem result_eq (x : FVec Ideal Cert.KernelIdeal.S100000x40 .f32) (Ws : FVec Ideal Cert.KernelIdeal.S2x40x40 .f32)
    (E : IVec Cert.KernelIdeal.S2x2000000 32) :
    Cert.ReferenceIdeal.Read.val_main_v52 (F := Ideal) x Ws E = network x Ws E := by
  rw [Cert.ReferenceIdeal.Layers.result_eq, weight0_eq, weight1_eq]
  unfold Cert.KernelIdeal.Whole.network Cert.KernelIdeal.Whole.hidden
  rw [show Cert.ReferenceIdeal.Layers.agg E = aggK (srcOf E) (dstOf E) from funext (agg_eq E)]

end Cert.Bridge

end
-- ==== Proof.lean ====
/-
  The certificate of a two-round label propagation on a graph of 100000 nodes and 2000000 edges with 40 classes.

  Both programs compute, from the node features x, two 40×40 weight matrices W₀, W₁ and the edge list,

      softmaxRows (denseRelu (agg (normRows (denseRelu (agg (normRows x)) W₀))) W₁),

  where normRows divides every row by its Euclidean length plus 10⁻¹⁵, agg gathers the rows at the edges' source nodes
  and adds them up at the destination nodes, denseRelu is the product with a weight matrix cut at zero, and softmaxRows
  is the soft maximum of every row. The kernel program runs the three row-wise layers as three tiled kernels over blocks
  of 5000 rows, with the aggregation as host operations between them; the reference is host operations throughout.
  On the extended reals the two are the same function, term for term: a lane sum is the host's sum from zero, the lane
  maximum the host's maximum from minus infinity, the matrix unit's product into a zero accumulator the host's
  contraction, and each layer acts row by row, so tiling the rows changes nothing. No law used needs finiteness, so
  the precondition is never opened.

  • the three frames: the two kernel programs' are the generated frame certificates; the reference's is its run with
    the result dropped;
  • `preserves`: the ideal pass rewrote nothing, so there is nothing to state;
  • `algebraic`: the kernel program's run with its result named (`GenP.run_out`) ends at the network of the argument
    arrays (`Whole.result`), and the reference's run at its composed term, which is the same network (`Bridge.result_eq`).
-/
import proofs.«112633_j85856396248060_1_alg».proof.Defs
import proofs.«112633_j85856396248060_1_alg».proof.Proof.Gen.Kernel
import proofs.«112633_j85856396248060_1_alg».proof.Proof.Gen.Kernel.Frame
import proofs.«112633_j85856396248060_1_alg».proof.Proof.Gen.KernelIdeal
import proofs.«112633_j85856396248060_1_alg».proof.Proof.Gen.KernelIdeal.Frame
import proofs.«112633_j85856396248060_1_alg».proof.Proof.Gen.ReferenceIdeal
import proofs.«112633_j85856396248060_1_alg».proof.Proof.Gen.Pre_finite_inputs
import proofs.«112633_j85856396248060_1_alg».proof.Proof.Gen.ReferenceIdeal.Run
import proofs.«112633_j85856396248060_1_alg».proof.Proof.Gen.ReferenceIdeal.Read
import proofs.«112633_j85856396248060_1_alg».proof.Proof.KernelRun
import proofs.«112633_j85856396248060_1_alg».proof.Proof.KernelValue
import proofs.«112633_j85856396248060_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the network of the (agreeing) argument arrays in the result array. -/
theorem algebraic : Cert.algebraic_KernelIdeal_ReferenceIdeal := by
  intro m ρ m' ρ' _ hagree
  refine ⟨fun c => Cert.KernelIdeal.Whole.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Whole.result m ρ c), (h c).2⟩)
      (Cert.KernelIdeal.GenP.run_out (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v52_eq, (hagree c).1, (hagree c).2.1, (hagree c).2.2]
    exact Cert.Bridge.result_eq _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
